-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : IVec S2x1600000 32) (main_arg2 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : IVec S1x1600000 32 := (extractStridedSlice S1x1600000 ![0, 0] · slices_S2x1600000_S1x1600000_0_0) main_arg1
  let main_v10 : IVec S1600000 32 := shapeCast S1600000 main_v9 shapeCasts_S1x1600000_S1600000
  let main_c_2 : IVec S_ 32 := constantI S_ 32 0#32
  let main_v11 : IVec S1600000 32 := broadcastInDim S1600000 ![] bcast_S_S1600000 main_c_2
  let main_v12 : IVec S1600000 1 := cmpi .sge main_v10 main_v11
  let main_c_3 : IVec S_ 1 := constantI S_ 1 1#1
  let main_v13 : IVec S_ 1 := (fun x v => Host.reduce IntOp.andi x v reducesTo_S1600000_S_d0 h_S_) main_v12 main_c_3
  let main_v14 : IVec S_ 1 := andi main_v8 main_v13
  main_v14
-- ==== Kernel.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩

abbrev nBuf : Space → Nat
  | .hbm => 43
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S100000x128, .f32⟩
  | .hbm, ⟨40, _⟩ => ⟨S128x128, .f32⟩
  | .hbm, ⟨41, _⟩ => ⟨S128x128, .bf16⟩
  | .hbm, ⟨42, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_c : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x128, .f32⟩
  | .hbm, ⟨38, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Domain.lean ====
/-
  The domain the statement assumes of the edge array, read back.

  The precondition's last conjunct says every destination row `edge_index[0, e]` is nonnegative (read as a signed
  32-bit word).  It is printed as an `and`-reduction over all 1,600,000 edges of the comparison "row ≥ 0", so the
  conjunct being true gives the comparison at each edge.  A row that is not negative is left alone by the rule
  "a negative index counts from the end" (`row < 0 ? row + N : row`), which is how the two programs' scatters come to
  use the same rows.
-/
import proofs.«163534_j15436112462151_2_alg».proof.Pre_finite_inputs
import proofs.«163534_j15436112462151_2_alg».proof.Proof.Gen.Pre_finite_inputs
import Idealize.ShloMosaic.Lib.ReduceAll
import Idealize.ShloMosaic.Lib.DynamicIndex
import Idealize.ShloMosaic.Lib.ValueIdx
import Idealize.ShloMosaic.PureOps.Ideal

noncomputable section

namespace Cert.Bridge.Domain

open Idealize.ShloMosaic Cert.Pre_finite_inputs Cert.Pre_finite_inputs.Facts

instance : Subsingleton S_.Idx := ⟨fun a b => funext fun d => d.elim0⟩

/-- Each edge's destination row: row 0 of the `[2, E]` edge array, as a flat `[E]` vector. -/
abbrev destRow (ei : IVec S2x1600000 32) : IVec S1600000 32 :=
  shapeCast S1600000 (extractStridedSlice S1x1600000 ![0, 0] ei slices_S2x1600000_S1x1600000_0_0) shapeCasts_S1x1600000_S1600000

/-- Under the precondition every destination row is nonnegative. -/
theorem destRow_nonneg (x : FVec Ideal S100000x128 .f32) (ei : IVec S2x1600000 32) (W : FVec Ideal S128x128 .f32)
    (h : fn (F := Ideal) x ei W = fun _ => 1#1) (e : S1600000.Idx) : 0 ≤ (destRow ei e).toInt := by
  have h0 := congrFun h ValueIdx.ix0
  dsimp only [fn] at h0
  obtain ⟨-, hall⟩ := IntOp.andi_eq_one.1 h0
  have hc := Host.reduce_andi_all _ _ _ _ _ hall e
  exact IntOp.cmpi_sge.1 hc

/-- Where every entry of `r` is nonnegative, "a negative index counts from the end" changes nothing. -/
theorem wrap_eq_self {s : Shape} (r a : IVec s 32) (z : IVec s 32) (hz : z = constantI s 32 0#32)
    (h : ∀ e, 0 ≤ (r e).toInt) : select (cmpi .slt r z) a r = r := by
  subst hz
  funext e
  exact select_slt_zero_of_nonneg r a r e (h e)

end Cert.Bridge.Domain

end
-- ==== Proof.LibLayout.lean ====
/-
  Layout operations on a trailing unit axis, read at an index written by coordinates.

  A keep-dims value has a trailing axis of extent one.  Adding that axis by a shape cast, dropping it again, and
  broadcasting along it each read ONE element of the operand: the element with the same leading coordinates (and
  coordinate 0 on the unit axis).  Stated for any extents, at ranks 1–4, over indices built by coordinates.
-/
import Idealize.ShloMosaic.Lib.Pipeline.Value
import Idealize.ShloMosaic.Lib.ValueIdx
import Idealize.ShloMosaic.Lib.ValueLayout

namespace Cert.Bridge.Layout

open Idealize.ShloMosaic Idealize.ShloMosaic.ValueIdx

variable {α : Type}

/-- An `[a, b, 1]` array broadcast to `[a, b, n]` reads, at `(i, j, k)`, the operand at `(i, j, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (j : Fin b) (k : Fin n) :
    broadcastTo ⟨3, ![a, b, n]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c, 1]` array broadcast to `[a, b, c, n]` reads, at `(i, j, k, l)`, the operand at `(i, j, k, 0)`. -/
theorem broadcastTo_abc1_abcn_apply {a b c n : ℕ} (v : (⟨4, ![a, b, c, 1]⟩ : Shape).Idx → α)
    (h : (⟨4, ![a, b, c, 1]⟩ : Shape).Broadcasts ⟨4, ![a, b, c, n]⟩) (i : Fin a) (j : Fin b) (k : Fin c) (l : Fin n) :
    broadcastTo ⟨4, ![a, b, c, n]⟩ v h (ix4 i j k l) = v (ix4 i j k (0 : Fin 1)) := by
  refine broadcastTo_apply v h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- An `[a, 1]` column broadcast to `[a, n]` reads, at `(i, j)`, the operand at `(i, 0)`. -/
theorem broadcastTo_a1_an_apply {a n : ℕ} (v : (⟨2, ![a, 1]⟩ : Shape).Idx → α)
    (h : (⟨2, ![a, 1]⟩ : Shape).Broadcasts ⟨2, ![a, n]⟩) (i : Fin a) (j : Fin n) :
    broadcastTo ⟨2, ![a, n]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_four, Shape.rowMajor_val_three]
    show (i.val * b + j.val) * c + k.val = ((i.val * b + j.val) * c + k.val) * 1 + u.val
    rw [hu, Nat.mul_one, Nat.add_zero])

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a]` vector cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Bridge.Layout
-- ==== Proof.Body.lean ====
/-
  What one grid step stores, read at an index.

  A step holds a 5000-row block of the neighbour sums `a`, the matching block of the scaled features `b`, the
  matching 5000 x 1 column `s` of inverse square-root degrees, and the whole 128 x 128 weight matrix `w`.  It stores
  the matrix product of `(a + b) * s` (the column spread along each row) with `w`.  Over the extended reals a change
  of float format is the identity and the product into a zero accumulator is the plain sum, so the stored value at
  row `p`, column `q` is the sum over `k` of `((a p k + b p k) * s p 0) * w k q`.
-/
import proofs.«163534_j15436112462151_2_alg».proof.Proof.Gen.KernelIdeal.Skeleton
import proofs.«163534_j15436112462151_2_alg».proof.Proof.LibLayout
import Idealize.ShloMosaic.Lib.ValueIdx
import Idealize.ShloMosaic.Lib.Pipeline.Value
import Idealize.ShloMosaic.PureOps.Ideal.Laws

noncomputable section

namespace Cert.Bridge.Body

open Idealize.ShloMosaic Idealize.ShloMosaic.ValueIdx Cert.KernelIdeal Cert.KernelIdeal.Gen

/-- Axis 0 of the left operand's index is the output's row. -/
theorem lhs_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- Axis 1 of the left operand's index is the contraction position. -/
theorem lhs_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r

/-- Axis 0 of the right operand's index is the contraction position. -/
theorem rhs_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r

/-- Axis 1 of the right operand's index is the output's column. -/
theorem rhs_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The stored value at `(p, q)`: the sum over `k` of `((a p k + b p k) * s p 0) * w k q`. -/
theorem stored_at (a b : FVec Ideal S5000x128 .f32) (s : FVec Ideal S5000x1 .f32) (w : FVec Ideal S128x128 .bf16)
    (p : Fin 5000) (q : Fin 128) :
    k0_pay1 (F := Ideal) a b s w (ix2 p q)
      = ∑ k : Fin 128, ((a (ix2 p k) + b (ix2 p k)) * s (ix2 p (0 : Fin 1))) * w (ix2 k q) := by
  unfold k0_pay1
  rw [shapeCast_self, shapeCast_self, shapeCast_self, shapeCast_self]
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k :=
    funext fun ax => Fin.ext (by
      match ax with
      | ⟨0, _⟩ => exact lhs_0 _ _
      | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q :=
    funext fun ax => Fin.ext (by
      match ax with
      | ⟨0, _⟩ => exact (rhs_0 _ _).trans hk
      | ⟨1, _⟩ => exact rhs_1 _ _)
  rw [el, er, truncf_apply, mulf_apply, addf_apply, Cert.Bridge.Layout.broadcastTo_a1_an_apply]

end Cert.Bridge.Body

end
-- ==== Proof.Spec.lean ====
/-
  The common value of the two programs, as one function.

  Both programs end with, at row `n` and column `q`,

      sum over k of ((A n k + B n k) * s n 0) * w k q

  where `A` is the sum over incoming edges of the scaled features (the neighbour sums), `B` the scaled features
  themselves (the self loop), `s` the column of inverse square-root degrees and `w` the transposed weights: the
  graph convolution `D^(-1/2) (Adj + I) D^(-1/2) X W^T` read one entry at a time.
-/
import Idealize.ShloMosaic.Lib.ValueIdx
import Idealize.ShloMosaic.PureOps.Ideal

noncomputable section

namespace Cert.Bridge.Spec

open Idealize.ShloMosaic Idealize.ShloMosaic.ValueIdx

/-- Row `i 0`, column `i 1` of the result: the row of `A + B`, scaled by that row's entry of the column `s`, times
    column `i 1` of `w`. -/
def rowMix (A B : (⟨2, ![100000, 128]⟩ : Shape).Idx → EReal) (s : (⟨2, ![100000, 1]⟩ : Shape).Idx → EReal)
    (w : (⟨2, ![128, 128]⟩ : Shape).Idx → EReal) (i : (⟨2, ![100000, 128]⟩ : Shape).Idx) : EReal :=
  ∑ k : Fin 128, ((A (ix2 (i 0) k) + B (ix2 (i 0) k)) * s (ix2 (i 0) (0 : Fin 1))) * w (ix2 k (i 1))

end Cert.Bridge.Spec

end
-- ==== Proof.Blocks.lean ====
/-
  The kernel's output array, whole.

  The grid has 20 steps; step `t` works on rows `5000 t .. 5000 t + 4999` of the neighbour sums, of the scaled
  features, of the inverse square-root degree column and of the output, and on the whole weight matrix.  Each step
  stores the value read in `Body`, so row `n` of the output, whichever step owns it, is

      out n q = sum over k of ((nbr n k + xs n k) * inv n 0) * w k q

  of the four arrays as the kernel finds them.  The 20 row blocks tile the output, so this holds at every index.
  The per-step fact is proved for arbitrary arrays; only the last theorem names the arrays the kernel found.
-/
import proofs.«163534_j15436112462151_2_alg».proof.Proof.Gen.KernelIdeal.Value
import proofs.«163534_j15436112462151_2_alg».proof.Proof.Body
import proofs.«163534_j15436112462151_2_alg».proof.Proof.Spec

noncomputable section

namespace Cert.Bridge.Blocks

open Cert.KernelIdeal Cert.KernelIdeal.Gen Idealize.ShloMosaic Idealize.ShloMosaic.TcCoe Idealize.SL.Sem
open Idealize.ShloMosaic.ValueIdx Cert.Bridge.Spec
open Idealize.ShloMosaic.Pipeline (Dat)

theorem hz : (![0, 0] : Fin 2 → Nat) = fun _ => 0 := funext fun a => by fin_cases a <;> rfl

/-- What the body leaves in the output's buffer, at `(p, q)`, from the four loaded blocks. -/
theorem out_at (x0 x1 : Vec Ideal S5000x128 .f32) (x2 : Vec Ideal S5000x1 .f32) (x3 : Vec Ideal S128x128 .bf16)
    (p : Fin 5000) (q : Fin 128) :
    out0_4 (F := Ideal) x0 x1 x2 x3 (ix2 p q)
      = ∑ k : Fin 128, ((x0 (ix2 p k) + x1 (ix2 p k)) * x2 (ix2 p (0 : Fin 1))) * x3 (ix2 k q) := by
  unfold out0_4
  rw [View.canon_unit_zero hz]
  simp only [View.ld_unit_zero (S := S5000x128) hz, View.ld_unit_zero (S := S5000x1) hz, View.ld_unit_zero (S := S128x128) hz]
  exact Cert.Bridge.Body.stored_at x0 x1 x2 x3 p q

/-- The same as a function of the buffer's index. -/
theorem out_fn (x0 x1 : Vec Ideal S5000x128 .f32) (x2 : Vec Ideal S5000x1 .f32) (x3 : Vec Ideal S128x128 .bf16) :
    out0_4 (F := Ideal) x0 x1 x2 x3
      = fun y => ∑ k : Fin 128, ((x0 (ix2 (y 0) k) + x1 (ix2 (y 0) k)) * x2 (ix2 (y 0) (0 : Fin 1))) * x3 (ix2 k (y 1)) := by
  funext y
  obtain ⟨p, q, rfl⟩ : ∃ (p : Fin 5000) (q : Fin 128), y = ix2 p q := ⟨y 0, y 1, eq_ix2 y⟩
  exact out_at x0 x1 x2 x3 p q

/-- The printed index maps over the 20 steps: the three row-blocked inputs and the output are at block `(t, 0)`, the
    weights at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- ONE STEP, for any four arrays: what step `t` writes back from the arrays' blocks at `t` is the common value
    `rowMix` of the arrays, read through the output's block at `t`. -/
theorem step_eq (A0 A1 : S100000x128.Idx → EReal) (A2 : S100000x1.Idx → EReal) (A3 : S128x128.Idx → EReal) (t : Fin cfg0.N) :
    (cfg0.win 4).cut (grid0.coords t)
        (out0_4 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (rowMix A0 A1 A2 A3) := by
  rw [out_fn]
  obtain ⟨a00, a01, a10, a11, a20, a21, a30, a31, a40, a41⟩ := idx_facts t
  funext j
  show (_ : EReal) = rowMix A0 A1 A2 A3 (((cfg0.win 4).blk t).view.emb j)
  unfold rowMix
  show ((∑ k : Fin 128, _ : EReal)) = _
  refine Finset.sum_congr rfl fun k _ => ?_
  have e0 : ((cfg0.win 0).blk t).view.emb (ix2 ((cfg0.win 4).xinj (grid0.coords t) j 0) k) = ix2 ((((cfg0.win 4).blk t).view.emb j) 0) k := by
    funext a; apply Fin.ext
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * k.val = k.val; omega
  have e1 : ((cfg0.win 1).blk t).view.emb (ix2 ((cfg0.win 4).xinj (grid0.coords t) j 0) k) = ix2 ((((cfg0.win 4).blk t).view.emb j) 0) k := by
    funext a; apply Fin.ext
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * k.val = k.val; omega
  have e2 : ((cfg0.win 2).blk t).view.emb (ix2 ((cfg0.win 4).xinj (grid0.coords t) j 0) (0 : Fin 1)) = ix2 ((((cfg0.win 4).blk t).view.emb j) 0) (0 : Fin 1) := by
    funext a; apply Fin.ext
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 1 + 1 * 0 = 0; omega
  have e3 : ((cfg0.win 3).blk t).view.emb (ix2 k ((cfg0.win 4).xinj (grid0.coords t) j 1)) = ix2 k ((((cfg0.win 4).blk t).view.emb j) 1) := by
    funext a; apply Fin.ext
    match a with
    | ⟨0, _⟩ => show win0_3.index t (0 : Fin 2) * 128 + 1 * k.val = k.val; omega
    | ⟨1, _⟩ => show win0_3.index t (1 : Fin 2) * 128 + 1 * (j 1).val = win0_4.index t (1 : Fin 2) * 128 + 1 * (j 1).val; omega
  show ((A0 (((cfg0.win 0).blk t).view.emb (ix2 ((cfg0.win 4).xinj (grid0.coords t) j 0) k))
        + A1 (((cfg0.win 1).blk t).view.emb (ix2 ((cfg0.win 4).xinj (grid0.coords t) j 0) k)))
      * A2 (((cfg0.win 2).blk t).view.emb (ix2 ((cfg0.win 4).xinj (grid0.coords t) j 0) (0 : Fin 1))))
      * A3 (((cfg0.win 3).blk t).view.emb (ix2 k ((cfg0.win 4).xinj (grid0.coords t) j 1))) = _
  rw [e0, e1, e2, e3]
  rfl

/-- An index of the output is in step `t`'s block iff each coordinate is in the block's range on its axis. -/
theorem mem_blk (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v31).slice (win0_4.rect t)).set ↔ _
  rw [View.set_slice_whole, Rect.mem_set_unit]
  exact Iff.rfl

/-- Every output index is in the block of the step that owns its row, step `row / 5000`. -/
theorem cover (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  have hN : cfg0.N = 20 := N_0
  let t : Fin cfg0.N := ⟨(i 0).val / 5000, by rw [hN]; omega⟩
  obtain ⟨-, -, -, -, -, -, -, -, a40, a41⟩ := idx_facts t
  have ht : t.val = (i 0).val / 5000 := rfl
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

variable (m : (ℓ : Loc nD τ sig) → Buf (Elt Ideal) ℓ)

/-- Step `t` writes back block `t` of `rowMix` of the four arrays the grid finds. -/
theorem flushed_eq (c : Dev nD) (t : Fin cfg0.N) :
    (dats m 0 c).flushed 4 t
      = ((cfg0.win 4).blk t).view.read (Elt Ideal)
          (rowMix (V m c (Pipeline.arrRef spec0 0)) (V m c (Pipeline.arrRef spec0 1)) (V m c (Pipeline.arrRef spec0 2)) (V m c (Pipeline.arrRef spec0 3))) := by
  rw [Cert.KernelIdeal.Value.flushed4]
  unfold iblk
  exact step_eq (V m c (Pipeline.arrRef spec0 0)) (V m c (Pipeline.arrRef spec0 1)) (V m c (Pipeline.arrRef spec0 2)) (V m c (Pipeline.arrRef spec0 3)) t

/-- The output array after the run is `rowMix` of the four arrays the grid found. -/
theorem final (c : Dev nD) :
    (dats m 0 c).arrAt 4 cfg0.N
      = rowMix (V m c (Pipeline.arrRef spec0 0)) (V m c (Pipeline.arrRef spec0 1)) (V m c (Pipeline.arrRef spec0 2)) (V m c (Pipeline.arrRef spec0 3)) :=
  (dats m 0 c).arrAt_eq_of_cover 4 _ (fun t _ => flushed_eq m c t) cover

end Cert.Bridge.Blocks

end
-- ==== Proof.HostSide.lean ====
/-
  The arrays the kernel's grid finds are the reference's own intermediate stages.

  Before its grid the kernel's program computes, with the same operations as the reference, the inverse
  square-root degree column and the scaled features `xs`.  Its neighbour sums scatter the gathered rows of `xs` at
  the destination rows after "a negative index counts from the end" has been applied to them; the reference
  scatters at the rows as given.  Where every destination row is nonnegative that rule changes nothing, so the two
  scatters receive the same rows and the neighbour sums are the reference's segment sums.  The weights reach the
  kernel transposed and rounded to a narrower float format, which over the extended reals is the transposed
  matrix itself.
-/
import proofs.«163534_j15436112462151_2_alg».proof.Proof.Gen.KernelIdeal.Frame
import proofs.«163534_j15436112462151_2_alg».proof.Proof.Gen.ReferenceIdeal.Read
import proofs.«163534_j15436112462151_2_alg».proof.Proof.Domain
import Idealize.ShloMosaic.Lib.StableHlo.Run

noncomputable section

namespace Cert.Bridge.HostSide

open Cert.KernelIdeal Cert.KernelIdeal.Gen Idealize.ShloMosaic Idealize.ShloMosaic.TcCoe Idealize.SL.Sem
open Idealize.ShloMosaic.StableHlo

/-- The destination rows in the kernel program's spelling. -/
abbrev rowsK (ei : IVec S2x1600000 32) : IVec S1600000 32 :=
  shapeCast S1600000 (extractStridedSlice S1x1600000 ![0, 0] ei slices_S2x1600000_S1x1600000_0_0) shapeCasts_S1x1600000_S1600000

/-- Nonnegative destination rows pass "a negative index counts from the end" unchanged. -/
theorem wrap_rows (ei : IVec S2x1600000 32) (h : ∀ e, 0 ≤ (Cert.Bridge.Domain.destRow ei e).toInt) :
    select (cmpi .slt (rowsK ei) (broadcastInDim S1600000 ![] bcast_S_S1600000 (constantI S_ 32 0#32)))
        (addi (rowsK ei) (broadcastInDim S1600000 ![] bcast_S_S1600000 (constantI S_ 32 100000#32))) (rowsK ei)
      = rowsK ei :=
  Cert.Bridge.Domain.wrap_eq_self (rowsK ei) _ _ rfl h

variable (m : (ℓ : Loc nD τ sig) → Buf (Elt Ideal) ℓ)

/-- The scaled features the grid finds are the reference's. -/
theorem xs_eq (c : Dev nD) :
    (V m c main_v13 : S100000x128.Idx → EReal)
      = Cert.ReferenceIdeal.Read.val_main_v13 (F := Ideal) (m ((c : Thread nD τ).loc main_arg0)) (m ((c : Thread nD τ).loc main_arg1)) := by
  dsimp only [V, hostOps0]
  after_results_simp
  rfl

/-- The inverse square-root degree column the grid finds is the reference's. -/
theorem inv_eq (c : Dev nD) :
    (V m c main_v11 : S100000x1.Idx → EReal)
      = Cert.ReferenceIdeal.Read.val_main_v11 (F := Ideal) (m ((c : Thread nD τ).loc main_arg1)) := by
  dsimp only [V, hostOps0]
  after_results_simp
  rfl

/-- The weights the grid finds are the reference's transposed weights (the narrowing of the float format is the
    identity over the extended reals). -/
theorem wts_eq (c : Dev nD) :
    (V m c main_v30 : S128x128.Idx → EReal)
      = Cert.ReferenceIdeal.Read.val_main_v28 (F := Ideal) (m ((c : Thread nD τ).loc main_arg2)) := by
  dsimp only [V, hostOps0]
  after_results_simp
  rfl

/-- Where every destination row is nonnegative, the neighbour sums the grid finds are the reference's segment sums. -/
theorem nbr_eq (c : Dev nD)
    (h : ∀ e, 0 ≤ (Cert.Bridge.Domain.destRow (m ((c : Thread nD τ).loc main_arg1)) e).toInt) :
    (V m c main_v28 : S100000x128.Idx → EReal)
      = Cert.ReferenceIdeal.Read.val_main_v23 (F := Ideal) (m ((c : Thread nD τ).loc main_arg0)) (m ((c : Thread nD τ).loc main_arg1)) := by
  dsimp only [V, hostOps0]
  after_results_simp
  show Host.scatterAdd scatter_S100000x128_S1600000x1_S1600000x128_1_0_0_1 _
      (broadcastInDim S1600000x1 ![0] bcast_S1600000_S1600000x1_0
        (select (cmpi .slt (rowsK (m ((c : Thread nD τ).loc main_arg1))) (broadcastInDim S1600000 ![] bcast_S_S1600000 (constantI S_ 32 0#32)))
          (addi (rowsK (m ((c : Thread nD τ).loc main_arg1))) (broadcastInDim S1600000 ![] bcast_S_S1600000 (constantI S_ 32 100000#32)))
          (rowsK (m ((c : Thread nD τ).loc main_arg1))))) _ = _
  rw [wrap_rows _ h]
  rfl

end Cert.Bridge.HostSide

end
-- ==== Proof.RefSide.lean ====
/-
  The reference's result is the common value.

  The reference multiplies `(seg + xs) * inv` (the segment sums plus the self term, each row scaled by its inverse
  square-root degree) with the transposed weights in one whole matrix product.  Over the extended reals that
  product is the plain sum over the contracted axis, and the two broadcasts of the degree vector (to a column, then
  along the rows) read the row's own entry: the result at `(n, q)` is the sum over `k` of
  `((seg n k + xs n k) * inv n) * W q k`.
-/
import proofs.«163534_j15436112462151_2_alg».proof.Proof.Gen.ReferenceIdeal.Read
import proofs.«163534_j15436112462151_2_alg».proof.Proof.Spec

noncomputable section

namespace Cert.Bridge.RefSide

open Cert.ReferenceIdeal Cert.ReferenceIdeal.Read Idealize.ShloMosaic Idealize.ShloMosaic.ValueIdx Cert.Bridge.Spec

/-- The reference's last stage, entry by entry, from its segment sums, scaled features, degree column and transposed
    weights. -/
theorem result_eq (x0 : FVec Ideal S100000x128 .f32) (x1 : IVec S2x1600000 32) (x2 : FVec Ideal S128x128 .f32) :
    val_main_v29 (F := Ideal) x0 x1 x2
      = rowMix (val_main_v23 (F := Ideal) x0 x1) (val_main_v13 (F := Ideal) x0 x1) (val_main_v11 (F := Ideal) x1)
          (val_main_v28 (F := Ideal) x2) := by
  funext i
  rw [val_main_v29_apply]
  unfold rowMix
  refine Finset.sum_congr rfl fun k _ => ?_
  rw [val_main_v27_apply, val_main_v24_apply, val_main_v26_apply, val_main_v25_apply, val_main_v11_apply]
  have e1 : lidx_main_v29 i k = ix2 (i 0) k := funext fun a => Fin.ext (by
    match a with
    | ⟨0, _⟩ => rfl
    | ⟨1, _⟩ => rfl)
  have e2 : ridx_main_v29 i k = ix2 k (i 1) := funext fun a => Fin.ext (by
    match a with
    | ⟨0, _⟩ => rfl
    | ⟨1, _⟩ => rfl)
  have e3 : idx_main_v25 (idx_main_v26 (lidx_main_v29 i k)) = idx_main_v11 (ix2 (i 0) (0 : Fin 1)) := funext fun a => Fin.ext (by
    match a with
    | ⟨0, _⟩ => rfl)
  rw [e3, e1, e2]
  rfl

end Cert.Bridge.RefSide

end
-- ==== Proof.lean ====
/-
  A graph convolution `D^(-1/2) (Adj + I) D^(-1/2) X W^T` on 100000 nodes, 1600000 edges and 128 features, computed
  two ways, gives the same result over the extended reals whenever the features and weights are finite and every
  edge's destination row is nonnegative.

  Both programs count each row's edges, take `inv = 1 / sqrt (count + 1)`, scale the features row by row
  (`xs = X * inv`), gather `xs` at the edges' source rows and add the gathered rows up at the destination rows.  The
  reference then forms `(sums + xs) * inv` and multiplies by `W^T` in one product.  The kernel does the same last
  step in 20 blocks of 5000 rows, each block's product into a zero accumulator: the same sum over the 128 features,
  entry by entry (`Blocks`, `Body`, `RefSide`; the common value is `Spec.rowMix`).

  The one place the two programs differ is the second scatter.  The kernel's program first replaces a negative
  destination row `r` by `r + 100000`; the reference hands the rows to the scatter as they are, and a scatter drops
  an update whose row is outside `0 .. 99999`.  For a row in `-100000 .. -1` the first accumulates and the second
  drops, so the results differ there; for a nonnegative row the replacement is the identity and the two scatters
  receive the same rows (`Domain`, `HostSide`).  The gather's source rows are treated alike by both programs, and
  rows `≥ 100000` are dropped by both, so nothing else is needed of the edge array.

  No law of arithmetic that fails at infinities is used: the two sides are the same expression once the scatter's
  rows agree, so finiteness of the features and weights is not opened.
-/
import proofs.«163534_j15436112462151_2_alg».proof.Defs
import proofs.«163534_j15436112462151_2_alg».proof.Proof.Gen.Kernel
import proofs.«163534_j15436112462151_2_alg».proof.Proof.Gen.Kernel.Frame
import proofs.«163534_j15436112462151_2_alg».proof.Proof.Gen.KernelIdeal
import proofs.«163534_j15436112462151_2_alg».proof.Proof.Gen.KernelIdeal.Frame
import proofs.«163534_j15436112462151_2_alg».proof.Proof.Gen.KernelIdeal.Value
import proofs.«163534_j15436112462151_2_alg».proof.Proof.Gen.ReferenceIdeal
import proofs.«163534_j15436112462151_2_alg».proof.Proof.Gen.ReferenceIdeal.Run
import proofs.«163534_j15436112462151_2_alg».proof.Proof.Gen.ReferenceIdeal.Read
import proofs.«163534_j15436112462151_2_alg».proof.Proof.Gen.Pre_finite_inputs
import proofs.«163534_j15436112462151_2_alg».proof.Proof.Domain
import proofs.«163534_j15436112462151_2_alg».proof.Proof.Blocks
import proofs.«163534_j15436112462151_2_alg».proof.Proof.HostSide
import proofs.«163534_j15436112462151_2_alg».proof.Proof.RefSide
import Idealize.ShloMosaic.Adequacy
import Idealize.ShloMosaic.Init

noncomputable section

namespace Cert.Proof

open Idealize.ShloMosaic Idealize.ShloMosaic.TcCoe Idealize.SL.Sem

/-- The kernel's program runs and leaves its arguments alone. -/
theorem frame_kernel : Cert.frame_Kernel := fun m ρ _ => Cert.Kernel.Gen.frame m ρ

/-- So does the same program read over the extended reals. -/
theorem frame_kernelIdeal : Cert.frame_KernelIdeal := fun m ρ _ => Cert.KernelIdeal.Gen.frame m ρ

/-- The reference runs and leaves its arguments alone: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel's program over the extended reals rewrote no operation. -/
theorem preserves : Cert.preserves_Kernel_KernelIdeal := trivial

section Value

open Cert.KernelIdeal Cert.KernelIdeal.Gen

variable (m : (ℓ : Loc nD τ sig) → Buf (Elt Ideal) ℓ)

/-- Under the precondition the kernel's output array is the reference's last stage of the same three arguments:
    the 20 blocks make up `rowMix` of the four arrays the grid found, those arrays are the reference's stages (the
    neighbour sums because the destination rows are nonnegative), and the reference's last stage is `rowMix` of them. -/
theorem kernel_value (hpre : Cert.Pre_KernelIdeal m) (c : Dev nD) :
    (dats m 0 c).arrAt 4 cfg0.N
      = Cert.ReferenceIdeal.Read.val_main_v29 (F := Ideal) (m ((c : Thread nD τ).loc main_arg0))
          (m ((c : Thread nD τ).loc main_arg1)) (m ((c : Thread nD τ).loc main_arg2)) := by
  have e0 : (V m c (Pipeline.arrRef spec0 0) : S100000x128.Idx → EReal) = V m c main_v28 := rfl
  have e1 : (V m c (Pipeline.arrRef spec0 1) : S100000x128.Idx → EReal) = V m c main_v13 := rfl
  have e2 : (V m c (Pipeline.arrRef spec0 2) : S100000x1.Idx → EReal) = V m c main_v11 := rfl
  have e3 : (V m c (Pipeline.arrRef spec0 3) : S128x128.Idx → EReal) = V m c main_v30 := rfl
  have hrows : ∀ e, 0 ≤ (Cert.Bridge.Domain.destRow (m ((c : Thread nD τ).loc main_arg1)) e).toInt :=
    fun e => Cert.Bridge.Domain.destRow_nonneg _ _ _ (hpre c) e
  rw [Cert.Bridge.Blocks.final, e0, e1, e2, e3, Cert.Bridge.HostSide.nbr_eq m c hrows, Cert.Bridge.HostSide.xs_eq,
    Cert.Bridge.HostSide.inv_eq, Cert.Bridge.HostSide.wts_eq, Cert.Bridge.RefSide.result_eq]

end Value

/-- From memories that agree on the three arguments both programs end with the same result array: the reference's
    last stage of the arguments. -/
theorem algebraic : Cert.algebraic_KernelIdeal_ReferenceIdeal := by
  intro m ρ m' ρ' hpre hagree
  refine ⟨fun c => Cert.ReferenceIdeal.Read.val_main_v29 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1.trans (kernel_value m hpre c), (h c).2⟩)
      (Cert.KernelIdeal.Value.run_blocks m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    exact Cert.ReferenceIdeal.Read.val_main_v29_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
